-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S800000 : Shape := ⟨1, ![800000]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : FVec F S800000 .f32) (main_v33 : IVec S_ 1) : IVec S_ 1 :=
  let main_v34 : FVec F S800000 .f32 := Host.absf main_arg7
  let main_cst_12 : FVec F S_ .f32 := constant S_ .f32 0x7F800000#32
  let main_v35 : FVec F S800000 .f32 := broadcastInDim S800000 ![] bcast_S_S800000 main_cst_12
  let main_v36 : IVec S800000 1 := cmpf .olt main_v34 main_v35
  let main_c_13 : IVec S_ 1 := constantI S_ 1 1#1
  let main_v37 : IVec S_ 1 := (fun x v => Host.reduce IntOp.andi x v reducesTo_S800000_S_d0 h_S_) main_v36 main_c_13
  let main_v38 : IVec S_ 1 := andi main_v33 main_v37
  main_v38

def fn_part1 {F : FTy → Type} [FloatOps F] (main_arg4 : FVec F S256 .f32) (main_arg5 : FVec F S256 .f32) (main_arg6 : FVec F S256 .f32) (main_arg7 : FVec F S800000 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_v33

def fn {F : FTy → Type} [FloatOps F] (main_arg0 : FVec F S50000x256 .f32) (main_arg1 : FVec F S256x128 .f32) (main_arg2 : FVec F S128 .f32) (main_arg3 : FVec F S128x256 .f32) (main_arg4 : FVec F S256 .f32) (main_arg5 : FVec F S256 .f32) (main_arg6 : FVec F S256 .f32) (main_arg7 : FVec F S800000 .f32) (main_arg8 : IVec S800000 32) (main_arg9 : IVec S800000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_v13 main_v16
-- ==== Kernel.lean ====
abbrev S50000x256 : Shape := ⟨2, ![50000, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S800000 : Shape := ⟨1, ![800000]⟩
abbrev S1x128 : Shape := ⟨2, ![1, 128]⟩
abbrev S1x256 : Shape := ⟨2, ![1, 256]⟩
abbrev S50000x128 : Shape := ⟨2, ![50000, 128]⟩
abbrev S2000x256 : Shape := ⟨2, ![2000, 256]⟩
abbrev S2000x128 : Shape := ⟨2, ![2000, 128]⟩
abbrev S800000x1 : Shape := ⟨2, ![800000, 1]⟩
abbrev S_ : Shape := ⟨0, ![]⟩
abbrev S800000x128 : Shape := ⟨2, ![800000, 128]⟩
abbrev S2000 : Shape := ⟨1, ![2000]⟩
abbrev S2000x1 : Shape := ⟨2, ![2000, 1]⟩

abbrev nBuf : Space → Nat
  | .hbm => 32
  | .vmem => 16
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S800000, .f32⟩
  | .hbm, ⟨8, _⟩ => ⟨S800000, .i32⟩
  | .hbm, ⟨9, _⟩ => ⟨S800000, .i32⟩
  | .hbm, ⟨10, _⟩ => ⟨S1x128, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S50000x128, .f32⟩
  | .hbm, ⟨15, _⟩ => ⟨S800000x1, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S800000x128, .f32⟩
  | .hbm, ⟨27, _⟩ => ⟨S_, .f32⟩
  | .hbm, ⟨28, _⟩ => ⟨S50000x128, .f32⟩
  | .hbm, ⟨29, _⟩ => ⟨S800000x1, .i32⟩
  | .hbm, ⟨30, _⟩ => ⟨S50000x128, .f32⟩
  | .hbm, ⟨31, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S128x256, .f32⟩
  | .local _ .vmem, ⟨9, _⟩ => ⟨S1x256, .f32⟩
  | .local _ .vmem, ⟨10, _⟩ => ⟨S2000x256, .f32⟩
  | .local _ .vmem, ⟨11, _⟩ => ⟨S2000x256, .f32⟩
  | .local _ .vmem, ⟨12, _⟩ => ⟨S1x256, .f32⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  shapeCasts_S128_S1x128 : S128.ShapeCasts S1x128
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x256_S2000x256_1_0_0_1_n_n_wf : DotDims.WF S2000x128 S128x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x256.size a ≤ S50000x256.size a
  hwx1_3 : ∀ i : grid1.Coords, EltTy.bits .f32 = 32 ∨ (Rect.block (s := S50000x256) S2000x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S50000x256.size a
  hwx1_6 : ∀ i : grid1.Coords, EltTy.bits .f32 = 32 ∨ (Rect.block (s := S50000x256) S2000x256.size (cc1_transform_6 i) (hinb1_6 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2000x256.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x256 : Shape := ⟨2, ![50000, 256]⟩
abbrev S256x128 : Shape := ⟨2, ![256, 128]⟩
abbrev S128 : Shape := ⟨1, ![128]⟩
abbrev S128x256 : Shape := ⟨2, ![128, 256]⟩
abbrev S256 : Shape := ⟨1, ![256]⟩
abbrev S800000 : Shape := ⟨1, ![800000]⟩
abbrev S50000x128 : Shape := ⟨2, ![50000, 128]⟩
abbrev S1x128 : Shape := ⟨2, ![1, 128]⟩
abbrev S800000x1 : Shape := ⟨2, ![800000, 1]⟩
abbrev S_ : Shape := ⟨0, ![]⟩
abbrev S800000x128 : Shape := ⟨2, ![800000, 128]⟩
abbrev S1x256 : Shape := ⟨2, ![1, 256]⟩
abbrev S50000 : Shape := ⟨1, ![50000]⟩
abbrev S50000x1 : Shape := ⟨2, ![50000, 1]⟩

abbrev nBuf : Space → Nat
  | .hbm => 64
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S256x128, .f32⟩
  | .hbm, ⟨2, _⟩ => ⟨S128, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S800000, .f32⟩
  | .hbm, ⟨8, _⟩ => ⟨S800000, .i32⟩
  | .hbm, ⟨9, _⟩ => ⟨S800000, .i32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S800000x1, .f32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x256, .f32⟩
  | .hbm, ⟨31, _⟩ => ⟨S1x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S_, .f32⟩
  | .hbm, ⟨36, _⟩ => ⟨S50000, .f32⟩
  | .hbm, ⟨37, _⟩ => ⟨S50000x1, .f32⟩
  | .hbm, ⟨38, _⟩ => ⟨S_, .f32⟩
  | .hbm, ⟨39, _⟩ => ⟨S50000x1, .f32⟩
  | .hbm, ⟨40, _⟩ => ⟨S50000x1, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S_, .f32⟩
  | .hbm, ⟨45, _⟩ => ⟨S50000, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x256, .f32⟩
  | .hbm, ⟨51, _⟩ => ⟨S50000x256, .f32⟩
  | .hbm, ⟨52, _⟩ => ⟨S1x256, .f32⟩
  | .hbm, ⟨53, _⟩ => ⟨S50000x256, .f32⟩
  | .hbm, ⟨54, _⟩ => ⟨S50000x256, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S1x256, .f32⟩
  | .hbm, ⟨62, _⟩ => ⟨S50000x256, .f32⟩
  | .hbm, ⟨63, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_c_0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_5 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S50000_d1 : S50000x256.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x256_S50000x256_1_0_0_1_n_n_wf : DotDims.WF S50000x128 S128x256 S50000x256 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf

class Facts : Prop extends Facts₀ where

variable [Facts]
-- ==== Proof.KRun.lean ====
/-
  The program's run with its result named.

  @main is a stretch of host operations, the first pallas_call, a second stretch, the second pallas_call. Every weakly
  fair execution terminates without a fault; the final memory holds, at the result buffer, what the fold of the four
  segments leaves there (the second call's result array after its last write-back), and the arguments as launched.
-/
import proofs.«108852_j56599079026738_1_alg».proof.Proof.Gen.KernelIdeal.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the contents the
    last segment leaves and the arguments as launched. -/
theorem run_result : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Hand

end
-- ==== Proof.Spec.lean ====
/-
  The two dense stages of the graph layer, entry by entry, on the extended reals.

  An affine map of rows: entry (p, q) of `x · w + b` is the sum over the contraction index of the products, plus the
  bias of column q (the bias a one-row matrix).

  Layer normalisation of one row `r` of width D, with the width and the epsilon kept as two given extended reals:
  the mean `μ = (Σ r) / n`, the variance `σ² = (Σ (r − μ)²) / n`, and the entry
  `g · ((r − μ) · (σ² + ε)^(-1/2)) + b`. The same entry with the scale applied first,
  `(g · (r − μ)) · (σ² + ε)^(-1/2) + b`, is equal to it by associativity of the product, which holds on the
  extended reals without any finiteness.
-/
import Idealize.ShloMosaic.Lib.ValueIdx
import Idealize.ShloMosaic.PureOps.Ideal

noncomputable section

namespace Cert.Gnn

open Idealize.ShloMosaic Idealize.ShloMosaic.ValueIdx
open scoped BigOperators

variable {M K N D : ℕ}

/-- Entry (p, q) of `x · w + b`, the bias `b` a one-row matrix. -/
def affine (x : (⟨2, ![M, K]⟩ : Shape).Idx → EReal) (w : (⟨2, ![K, N]⟩ : Shape).Idx → EReal)
    (b : (⟨2, ![1, N]⟩ : Shape).Idx → EReal) (p : Fin M) (q : Fin N) : EReal :=
  (∑ k : Fin K, x (ix2 p k) * w (ix2 k q)) + b (ix2 (0 : Fin 1) q)

/-- `x · w + b` as an array. -/
def affineArr (x : (⟨2, ![M, K]⟩ : Shape).Idx → EReal) (w : (⟨2, ![K, N]⟩ : Shape).Idx → EReal)
    (b : (⟨2, ![1, N]⟩ : Shape).Idx → EReal) : (⟨2, ![M, N]⟩ : Shape).Idx → EReal :=
  fun i => affine x w b (i 0) (i 1)

theorem affineArr_ix2 (x : (⟨2, ![M, K]⟩ : Shape).Idx → EReal) (w : (⟨2, ![K, N]⟩ : Shape).Idx → EReal)
    (b : (⟨2, ![1, N]⟩ : Shape).Idx → EReal) (p : Fin M) (q : Fin N) :
    affineArr x w b (ix2 p q) = affine x w b p q := rfl

/-- The mean of a row: its sum over the given width. -/
def rowMean (n : EReal) (r : Fin D → EReal) : EReal := Ideal.div (∑ c : Fin D, r c) n

/-- The (biased) variance of a row about its mean. -/
def rowVar (n : EReal) (r : Fin D → EReal) : EReal :=
  Ideal.div (∑ c : Fin D, (r c - rowMean n r) * (r c - rowMean n r)) n

/-- Entry c of the normalised row, scaled and shifted: `g · ((r − μ) · (σ² + ε)^(-1/2)) + b`. -/
def layerNorm (n eps : EReal) (r g b : Fin D → EReal) (c : Fin D) : EReal :=
  g c * ((r c - rowMean n r) * Ideal.rsqrt (rowVar n r + eps)) + b c

/-- The scale applied before the normalising factor gives the same entry: the product is associative. -/
theorem layerNorm_scale_first (n eps : EReal) (r g b : Fin D → EReal) (c : Fin D) :
    g c * (r c - rowMean n r) * Ideal.rsqrt (rowVar n r + eps) + b c = layerNorm n eps r g b c := by
  unfold layerNorm
  rw [mul_assoc]

/-- The projected, residual-added and normalised array: row p is the layer normalisation of
    `a · w + b + x` at row p. -/
def projectNorm (n eps : EReal) (a : (⟨2, ![M, K]⟩ : Shape).Idx → EReal) (w : (⟨2, ![K, D]⟩ : Shape).Idx → EReal)
    (b : (⟨2, ![1, D]⟩ : Shape).Idx → EReal) (x : (⟨2, ![M, D]⟩ : Shape).Idx → EReal)
    (g be : (⟨2, ![1, D]⟩ : Shape).Idx → EReal) : (⟨2, ![M, D]⟩ : Shape).Idx → EReal :=
  fun i => layerNorm n eps (fun c => affine a w b (i 0) c + x (ix2 (i 0) c))
    (fun c => g (ix2 (0 : Fin 1) c)) (fun c => be (ix2 (0 : Fin 1) c)) (i 1)

theorem projectNorm_ix2 (n eps : EReal) (a : (⟨2, ![M, K]⟩ : Shape).Idx → EReal) (w : (⟨2, ![K, D]⟩ : Shape).Idx → EReal)
    (b : (⟨2, ![1, D]⟩ : Shape).Idx → EReal) (x : (⟨2, ![M, D]⟩ : Shape).Idx → EReal)
    (g be : (⟨2, ![1, D]⟩ : Shape).Idx → EReal) (p : Fin M) (c : Fin D) :
    projectNorm n eps a w b x g be (ix2 p c)
      = layerNorm n eps (fun c' => affine a w b p c' + x (ix2 p c'))
          (fun c' => g (ix2 (0 : Fin 1) c')) (fun c' => be (ix2 (0 : Fin 1) c')) c := rfl

end Cert.Gnn

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.Body0.lean ====
/-
  The first kernel's stored value, entry by entry: with the changes of float format the identity, the product of the
  row block by the weight matrix into a zero accumulator plus the bias row repeated down the rows is, at (p, q),
  the affine map's entry.
-/
import proofs.«108852_j56599079026738_1_alg».proof.Proof.Gen.KernelIdeal.Skeleton
import proofs.«108852_j56599079026738_1_alg».proof.Proof.Spec
import proofs.«108852_j56599079026738_1_alg».proof.Proof.LibMatmul2d
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.Gnn
open scoped BigOperators

/-- The stored block of the first kernel at row p, column q. -/
theorem pay0_apply (x : Vec Ideal S2000x256 .f32) (w : Vec Ideal S256x128 .f32) (b : Vec Ideal S1x128 .f32)
    (p : Fin 2000) (q : Fin 128) :
    k0_pay1 (F := Ideal) x w b (ix2 p q) = affine x w b p q := by
  unfold k0_pay1 affine
  rw [addf_apply, shapeCast_self,
    show dot_S2000x256_S256x128_S2000x128_1_0_0_1_n_n = DotDims.plain 2000 256 128 from rfl]
  refine congrArg₂ (· + ·) ?_ ?_
  · exact Cert.LibMatmul2d.matmul_plain_apply (truncf .bf16 x _) (truncf .bf16 w _) p q
  · exact broadcastTo_1b_ab_apply b _ p q

end Cert.KernelIdeal.Hand

end
-- ==== Proof.Region0.lean ====
/-
  The first pallas_call's result array, as one function of the arrays the call is entered with.

  The grid has 25 points; point t is handed rows 2000·t … 2000·t + 1999 of the node features, the whole weight matrix
  and the whole bias row, and writes back rows 2000·t … 2000·t + 1999 of the result. What it writes back is the affine
  map of its rows, which depends on no other row: so each written block is a block of ONE array-wide function, the
  blocks cover the result array (row r lies in the block of point r / 2000), and the array ends holding that function.
-/
import proofs.«108852_j56599079026738_1_alg».proof.Proof.Gen.KernelIdeal.Frame
import proofs.«108852_j56599079026738_1_alg».proof.Proof.Body0
import Idealize.ShloMosaic.Lib.Pipeline.Value
import Idealize.ShloMosaic.Lib.Tactic

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gnn
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The block indices of the first call's windows at point t: the row windows move with the point, the weight matrix
    and the bias row stay. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The node-feature block at point t is rows 2000·t … of the array. -/
theorem iblk0_0_apply (c : Dev nD) (t : Fin cfg0.N) (y : S2000x256.Idx) (k : S50000x256.Idx)
    (hk0 : (k 0).val = 2000 * t.val + (y 0).val) (hk1 : (k 1).val = (y 1).val) :
    (iblk0 V c 0 t : Vec Ideal S2000x256 .f32) y = (V c main_arg0 : S50000x256.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 2000 + 1 * (y 0).val = (k 0).val; rw [e0, hk0]; omega
  | ⟨1, _⟩ => show win0_0.index t 1 * 256 + 1 * (y 1).val = (k 1).val; rw [e1, hk1]; omega

/-- The weight block at every point is the whole matrix. -/
theorem iblk0_1_apply (c : Dev nD) (t : Fin cfg0.N) (y : S256x128.Idx) :
    (iblk0 V c 1 t : Vec Ideal S256x128 .f32) y = (V c main_arg1 : S256x128.Idx → EReal) y := by
  obtain ⟨-, -, e0, e1, -⟩ := idx_facts0 t
  unfold iblk0
  rw [View.read_apply]
  show V c main_arg1 _ = V c main_arg1 _
  congr 1
  funext a
  apply Fin.ext
  match a with
  | ⟨0, _⟩ => show win0_1.index t 0 * 256 + 1 * (y 0).val = (y 0).val; rw [e0]; omega
  | ⟨1, _⟩ => show win0_1.index t 1 * 128 + 1 * (y 1).val = (y 1).val; rw [e1]; omega

/-- The bias block at every point is the whole row. -/
theorem iblk0_2_apply (c : Dev nD) (t : Fin cfg0.N) (y : S1x128.Idx) :
    (iblk0 V c 2 t : Vec Ideal S1x128 .f32) y = (V c main_v0 : S1x128.Idx → EReal) y := by
  obtain ⟨-, -, -, -, e0, e1, -⟩ := idx_facts0 t
  unfold iblk0
  rw [View.read_apply]
  show V c main_v0 _ = V c main_v0 _
  congr 1
  funext a
  apply Fin.ext
  match a with
  | ⟨0, _⟩ => show win0_2.index t 0 * 1 + 1 * (y 0).val = (y 0).val; rw [e0]; omega
  | ⟨1, _⟩ => show win0_2.index t 1 * 128 + 1 * (y 1).val = (y 1).val; rw [e1]; omega

/-- The transformed features as one array: the affine map of the arrays the call is entered with. -/
abbrev transformed (c : Dev nD) : S50000x128.Idx → EReal :=
  affineArr (V c main_arg0 : S50000x256.Idx → EReal) (V c main_arg1 : S256x128.Idx → EReal)
    (V c main_v0 : S1x128.Idx → EReal)

/-- What point t writes back is block t of the transformed features. -/
theorem flushed0 (c : Dev nD) (t : Fin cfg0.N) :
    (dat0 V c).flushed 3 t = ((cfg0.win 3).blk t).view.read (Elt Ideal) (transformed V c) := by
  show (cfg0.win 3).cut (grid0.coords t) ((dat0 V c).after 3 t) = _
  rw [after0_3]
  unfold out0_3
  rw [View.canon_unit_zero hz]
  simp only [View.ld_unit_zero (S := S2000x256) hz, View.ld_unit_zero (S := S256x128) hz, View.ld_unit_zero (S := S1x128) hz]
  obtain ⟨-, -, -, -, -, -, e0, e1⟩ := idx_facts0 t
  refine funext fun (j : S2000x128.Idx) => ?_
  obtain ⟨p, q, rfl⟩ : ∃ (p : Fin 2000) (q : Fin 128), j = ix2 p q := ⟨j 0, j 1, eq_ix2 j⟩
  refine (pay0_apply (iblk0 V c 0 t) (iblk0 V c 1 t) (iblk0 V c 2 t) p q).trans ?_
  rw [View.read_apply]
  unfold transformed affineArr affine
  have hp : ((((cfg0.win 3).blk t).view.emb (ix2 p q)) 0).val = 2000 * t.val + p.val := by
    show win0_3.index t 0 * 2000 + 1 * p.val = _; rw [e0]; omega
  have hq : ((((cfg0.win 3).blk t).view.emb (ix2 p q)) 1).val = q.val := by
    show win0_3.index t 1 * 128 + 1 * q.val = _; rw [e1]; omega
  refine congrArg₂ (· + ·) (Finset.sum_congr rfl fun k _ => congrArg₂ (· * ·) ?_ ?_) ?_
  · exact iblk0_0_apply V c t (ix2 p k) _ hp rfl
  · refine (iblk0_1_apply V c t (ix2 k q)).trans (congrArg _ ?_)
    funext a; apply Fin.ext
    match a with
    | ⟨0, _⟩ => rfl
    | ⟨1, _⟩ => exact hq.symm
  · refine (iblk0_2_apply V c t (ix2 (0 : Fin 1) q)).trans (congrArg _ ?_)
    funext a; apply Fin.ext
    match a with
    | ⟨0, _⟩ => rfl
    | ⟨1, _⟩ => exact hq.symm

/-- An index of the result array is in point t's block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v4).slice (win0_3.rect t)).set ↔ _
  rw [View.set_slice_whole, Rect.mem_set_unit]
  exact Iff.rfl

/-- Every row of the result lies in some point's block. -/
theorem cover0 (i : S50000x128.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  let t : Fin cfg0.N := ⟨(i 0).val / 2000, by rw [hN]; omega⟩
  obtain ⟨-, -, -, -, -, -, e0, e1⟩ := idx_facts0 t
  have ht : t.val = (i 0).val / 2000 := rfl
  refine ⟨t, flush0_3 t, ?_⟩
  rw [mem_blk0]
  intro a
  match a with
  | ⟨0, _⟩ => show win0_3.index t 0 * 2000 ≤ (i 0).val ∧ (i 0).val < win0_3.index t 0 * 2000 + 2000; rw [e0, ht]; omega
  | ⟨1, _⟩ => show win0_3.index t 1 * 128 ≤ (i 1).val ∧ (i 1).val < win0_3.index t 1 * 128 + 128; rw [e1]; omega

/-- The result array of the first call ends holding the transformed features. -/
theorem final0 (c : Dev nD) : (dat0 V c).arrAt 3 cfg0.N = transformed V c :=
  (dat0 V c).arrAt_eq_of_cover 3 (transformed V c) (fun t _ => flushed0 V c t) (cover0)

end Cert.KernelIdeal.Hand

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.Body1.lean ====
/-
  The second kernel's stored value, entry by entry.

  The body first forms the projected rows plus the residual, `res = a · w + b + x` (the product into a zero
  accumulator, the bias row repeated down the rows, the changes of float format the identity). It then normalises
  each row: the row sums kept as a column and divided by the width give the mean column; the centred block
  `res − mean` squared and averaged the same way gives the variance column; and the stored block is
  `g · ((res − mean) · (var + ε)^(-1/2)) + be`, the scale and shift rows repeated down the rows. Read at (p, c)
  this is the layer normalisation of row p of `res`.
-/
import proofs.«108852_j56599079026738_1_alg».proof.Proof.Gen.KernelIdeal.Skeleton
import proofs.«108852_j56599079026738_1_alg».proof.Proof.Spec
import proofs.«108852_j56599079026738_1_alg».proof.Proof.LibMatmul2d
import proofs.«108852_j56599079026738_1_alg».proof.Proof.LibRowwise
import Idealize.ShloMosaic.Lib.ValueLayout
import Idealize.ShloMosaic.Lib.Pipeline.Value

noncomputable section

namespace Cert.KernelIdeal.Hand

open Idealize.ShloMosaic Idealize.ShloMosaic.ValueIdx Cert.KernelIdeal Cert.KernelIdeal.Gen Cert.Gnn Cert.LibRowwise
open scoped BigOperators

/-- The width of a row, 256, as the kernel's literal denotes it. -/
abbrev width : EReal := Ideal.ofBits .f32 0x43800000#32
/-- The epsilon added to the variance, as the kernel's literal denotes it. -/
abbrev epsilon : EReal := Ideal.ofBits .f32 0x3727C5AC#32

/-- The projected rows plus the residual, as the body forms them. -/
def resBlock (a : Vec Ideal S2000x128 .f32) (w : Vec Ideal S128x256 .f32) (b : Vec Ideal S1x256 .f32)
    (x : Vec Ideal S2000x256 .f32) : FVec Ideal S2000x256 .f32 :=
  addf (addf (matmul dot_S2000x128_S128x256_S2000x256_1_0_0_1_n_n none
      (truncf .bf16 (shapeCast S2000x128 a shapeCasts_S2000x128_S2000x128) bitsLt_bf16_f32) (truncf .bf16 w bitsLt_bf16_f32)
      (constant S2000x256 .f32 0x00000000#32))
    (broadcastTo S2000x256 (shapeCast S1x256 b shapeCasts_S1x256_S1x256) broadcasts_S1x256_S2000x256)) x

/-- The row means of a block, kept as a column: the row sums divided by the width. -/
def colMean (src : FVec Ideal S2000x256 .f32) : FVec Ideal S2000x1 .f32 :=
  divf (shapeCast S2000x1 (multiReduction .add [1] S2000 src 0x00000000#32 reduces_S2000x256_S2000 (.inl rfl) rfl)
      shapeCasts_S2000_S2000x1)
    (broadcast S2000x1 (Scalar.ofBits .f32 0x43800000#32))

/-- A block with each row's mean taken off. -/
def centred (res : FVec Ideal S2000x256 .f32) : FVec Ideal S2000x256 .f32 :=
  subf res (broadcastTo S2000x256 (colMean res) broadcasts_S2000x1_S2000x256)

/-- The normalised, scaled and shifted block, as the body forms it from `res`. -/
def lnBlock (res : FVec Ideal S2000x256 .f32) (g be : Vec Ideal S1x256 .f32) : FVec Ideal S2000x256 .f32 :=
  addf (mulf (broadcastTo S2000x256 (shapeCast S1x256 g shapeCasts_S1x256_S1x256) broadcasts_S1x256_S2000x256)
      (mulf (centred res)
        (broadcastTo S2000x256
          (rsqrt (addf (colMean (mulf (centred res) (centred res))) (broadcast S2000x1 (Scalar.ofBits .f32 0x3727C5AC#32))))
          broadcasts_S2000x1_S2000x256)))
    (broadcastTo S2000x256 (shapeCast S1x256 be shapeCasts_S1x256_S1x256) broadcasts_S1x256_S2000x256)

/-- The stored value is the normalisation of the projected rows plus the residual. -/
theorem pay1_eq (a : Vec Ideal S2000x128 .f32) (w : Vec Ideal S128x256 .f32) (b : Vec Ideal S1x256 .f32)
    (x : Vec Ideal S2000x256 .f32) (g be : Vec Ideal S1x256 .f32) :
    k1_pay1 (F := Ideal) a w b x g be = lnBlock (resBlock a w b x) g be := rfl

/-- Entry (p, c) of the projected rows plus the residual. -/
theorem resBlock_apply (a : Vec Ideal S2000x128 .f32) (w : Vec Ideal S128x256 .f32) (b : Vec Ideal S1x256 .f32)
    (x : Vec Ideal S2000x256 .f32) (p : Fin 2000) (c : Fin 256) :
    resBlock a w b x (ix2 p c) = affine a w b p c + x (ix2 p c) := by
  unfold resBlock affine
  rw [addf_apply, addf_apply, shapeCast_self, shapeCast_self,
    show dot_S2000x128_S128x256_S2000x256_1_0_0_1_n_n = DotDims.plain 2000 128 256 from rfl]
  refine congrArg (· + x (ix2 p c)) (congrArg₂ (· + ·) ?_ ?_)
  · exact Cert.LibMatmul2d.matmul_plain_apply (truncf .bf16 a _) (truncf .bf16 w _) p c
  · exact broadcastTo_1b_ab_apply b _ p c

/-- The mean column at row p is the mean of row p. -/
theorem colMean_apply (src : FVec Ideal S2000x256 .f32) (p : Fin 2000) :
    colMean src (ix2 p (0 : Fin 1)) = rowMean width (fun c => src (ix2 p c)) :=
  (divf_apply _ _ _).trans (congrArg₂ Ideal.div
    ((shapeCast_a_a1_apply _ _ p 0).trans (rowSum_apply src _ _ _ _ p)) rfl)

/-- The centred block at (p, c). -/
theorem centred_apply (res : FVec Ideal S2000x256 .f32) (p : Fin 2000) (c : Fin 256) :
    centred res (ix2 p c) = res (ix2 p c) - rowMean width (fun c' => res (ix2 p c')) :=
  (subf_apply _ _ _).trans (congrArg (res (ix2 p c) - ·)
    ((broadcastTo_a1_ab_apply _ _ p c).trans (colMean_apply res p)))

/-- The mean of the squared centred row is the variance of the row. -/
theorem colMean_sq_apply (res : FVec Ideal S2000x256 .f32) (p : Fin 2000) :
    colMean (mulf (centred res) (centred res)) (ix2 p (0 : Fin 1)) = rowVar width (fun c => res (ix2 p c)) :=
  (colMean_apply _ p).trans (congrArg (fun f : Fin 256 → EReal => Ideal.div (∑ c : Fin 256, f c) width)
    (funext fun c => (mulf_apply _ _ _).trans (congrArg₂ (· * ·) (centred_apply res p c) (centred_apply res p c))))

/-- Entry (p, c) of the normalised block: the layer normalisation of row p of `res`. -/
theorem lnBlock_apply (res : FVec Ideal S2000x256 .f32) (g be : Vec Ideal S1x256 .f32) (p : Fin 2000) (c : Fin 256) :
    lnBlock res g be (ix2 p c)
      = layerNorm width epsilon (fun c' => res (ix2 p c')) (fun c' => g (ix2 (0 : Fin 1) c'))
          (fun c' => be (ix2 (0 : Fin 1) c')) c := by
  have hg : ∀ v : Vec Ideal S1x256 .f32,
      broadcastTo S2000x256 (shapeCast S1x256 v shapeCasts_S1x256_S1x256) broadcasts_S1x256_S2000x256 (ix2 p c)
        = v (ix2 (0 : Fin 1) c) := fun v =>
    (broadcastTo_1b_ab_apply _ _ p c).trans (congrFun (shapeCast_self v _) _)
  have hr : broadcastTo S2000x256
        (rsqrt (addf (colMean (mulf (centred res) (centred res))) (broadcast S2000x1 (Scalar.ofBits .f32 0x3727C5AC#32))))
        broadcasts_S2000x1_S2000x256 (ix2 p c)
      = Ideal.rsqrt (rowVar width (fun c' => res (ix2 p c')) + epsilon) :=
    (broadcastTo_a1_ab_apply _ _ p c).trans
      (congrArg (fun v : EReal => Ideal.rsqrt (v + epsilon)) (colMean_sq_apply res p))
  unfold lnBlock layerNorm
  exact (addf_apply _ _ _).trans (congrArg₂ (· + ·)
    ((mulf_apply _ _ _).trans (congrArg₂ (· * ·) (hg g)
      ((mulf_apply _ _ _).trans (congrArg₂ (· * ·) (centred_apply res p c) hr))))
    (hg be))

/-- The stored block of the second kernel at row p, column c. -/
theorem pay1_apply (a : Vec Ideal S2000x128 .f32) (w : Vec Ideal S128x256 .f32) (b : Vec Ideal S1x256 .f32)
    (x : Vec Ideal S2000x256 .f32) (g be : Vec Ideal S1x256 .f32) (p : Fin 2000) (c : Fin 256) :
    k1_pay1 (F := Ideal) a w b x g be (ix2 p c)
      = layerNorm width epsilon (fun c' => affine a w b p c' + x (ix2 p c')) (fun c' => g (ix2 (0 : Fin 1) c'))
          (fun c' => be (ix2 (0 : Fin 1) c')) c := by
  rw [pay1_eq, lnBlock_apply]
  exact congrArg (fun r : Fin 256 → EReal => layerNorm width epsilon r (fun c' => g (ix2 (0 : Fin 1) c'))
    (fun c' => be (ix2 (0 : Fin 1) c')) c) (funext fun c' => resBlock_apply a w b x p c')

end Cert.KernelIdeal.Hand

end
-- ==== Proof.Region1.lean ====
/-
  The second pallas_call's result array, as one function of the arrays the call is entered with.

  The grid has 25 points; point t is handed rows 2000·t … 2000·t + 1999 of the aggregated features and of the node
  features, and the whole projection matrix, bias row, scale row and shift row; it writes back rows
  2000·t … 2000·t + 1999 of the result. Row p of what it writes is the layer normalisation of row p of
  `aggregated · w + b + features`, which depends on no other row: so each written block is a block of ONE array-wide
  function, the blocks cover the result array, and the array ends holding that function.
-/
import proofs.«108852_j56599079026738_1_alg».proof.Proof.Gen.KernelIdeal.Frame
import proofs.«108852_j56599079026738_1_alg».proof.Proof.Body1
import Idealize.ShloMosaic.Lib.Pipeline.Value
import Idealize.ShloMosaic.Lib.Tactic

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Gnn
open scoped BigOperators

variable (V : (c : Dev nD) → (b : Ref sig .tc) → Buf (Elt Ideal) ((c : Thread nD τ).loc b))

theorem hz1 : (![0, 0] : Fin 2 → Nat) = fun _ => 0 := funext fun a => by fin_cases a <;> rfl

/-- The block indices of the second call's windows at point t: the three row windows move with the point, the matrix
    and the three one-row operands stay. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregated-feature block at point t is rows 2000·t … of the array. -/
theorem iblk1_0_apply (c : Dev nD) (t : Fin cfg1.N) (y : S2000x128.Idx) (k : S50000x128.Idx)
    (hk0 : (k 0).val = 2000 * t.val + (y 0).val) (hk1 : (k 1).val = (y 1).val) :
    (iblk1 V c 0 t : Vec Ideal S2000x128 .f32) y = (V c main_v17 : S50000x128.Idx → EReal) k := by
  obtain ⟨e0, e1, -⟩ := idx_facts1 t
  unfold iblk1
  rw [View.read_apply]
  show V c main_v17 _ = V c main_v17 _
  congr 1
  funext a
  apply Fin.ext
  match a with
  | ⟨0, _⟩ => show win1_0.index t 0 * 2000 + 1 * (y 0).val = (k 0).val; rw [e0, hk0]; omega
  | ⟨1, _⟩ => show win1_0.index t 1 * 128 + 1 * (y 1).val = (k 1).val; rw [e1, hk1]; omega

/-- The projection-matrix block at every point is the whole matrix. -/
theorem iblk1_1_apply (c : Dev nD) (t : Fin cfg1.N) (y : S128x256.Idx) :
    (iblk1 V c 1 t : Vec Ideal S128x256 .f32) y = (V c main_arg3 : S128x256.Idx → EReal) y := by
  obtain ⟨-, -, e0, e1, -⟩ := idx_facts1 t
  unfold iblk1
  rw [View.read_apply]
  show V c main_arg3 _ = V c main_arg3 _
  congr 1
  funext a
  apply Fin.ext
  match a with
  | ⟨0, _⟩ => show win1_1.index t 0 * 128 + 1 * (y 0).val = (y 0).val; rw [e0]; omega
  | ⟨1, _⟩ => show win1_1.index t 1 * 256 + 1 * (y 1).val = (y 1).val; rw [e1]; omega

/-- The bias block at every point is the whole row. -/
theorem iblk1_2_apply (c : Dev nD) (t : Fin cfg1.N) (y : S1x256.Idx) :
    (iblk1 V c 2 t : Vec Ideal S1x256 .f32) y = (V c main_v1 : S1x256.Idx → EReal) y := by
  obtain ⟨-, -, -, -, e0, e1, -⟩ := idx_facts1 t
  unfold iblk1
  rw [View.read_apply]
  show V c main_v1 _ = V c main_v1 _
  congr 1
  funext a
  apply Fin.ext
  match a with
  | ⟨0, _⟩ => show win1_2.index t 0 * 1 + 1 * (y 0).val = (y 0).val; rw [e0]; omega
  | ⟨1, _⟩ => show win1_2.index t 1 * 256 + 1 * (y 1).val = (y 1).val; rw [e1]; omega

/-- The node-feature block at point t is rows 2000·t … of the array. -/
theorem iblk1_3_apply (c : Dev nD) (t : Fin cfg1.N) (y : S2000x256.Idx) (k : S50000x256.Idx)
    (hk0 : (k 0).val = 2000 * t.val + (y 0).val) (hk1 : (k 1).val = (y 1).val) :
    (iblk1 V c 3 t : Vec Ideal S2000x256 .f32) y = (V c main_arg0 : S50000x256.Idx → EReal) k := by
  obtain ⟨-, -, -, -, -, -, e0, e1, -⟩ := idx_facts1 t
  unfold iblk1
  rw [View.read_apply]
  show V c main_arg0 _ = V c main_arg0 _
  congr 1
  funext a
  apply Fin.ext
  match a with
  | ⟨0, _⟩ => show win1_3.index t 0 * 2000 + 1 * (y 0).val = (k 0).val; rw [e0, hk0]; omega
  | ⟨1, _⟩ => show win1_3.index t 1 * 256 + 1 * (y 1).val = (k 1).val; rw [e1, hk1]; omega

/-- The scale block at every point is the whole row. -/
theorem iblk1_4_apply (c : Dev nD) (t : Fin cfg1.N) (y : S1x256.Idx) :
    (iblk1 V c 4 t : Vec Ideal S1x256 .f32) y = (V c main_v2 : S1x256.Idx → EReal) y := by
  obtain ⟨-, -, -, -, -, -, -, -, e0, e1, -⟩ := idx_facts1 t
  unfold iblk1
  rw [View.read_apply]
  show V c main_v2 _ = V c main_v2 _
  congr 1
  funext a
  apply Fin.ext
  match a with
  | ⟨0, _⟩ => show win1_4.index t 0 * 1 + 1 * (y 0).val = (y 0).val; rw [e0]; omega
  | ⟨1, _⟩ => show win1_4.index t 1 * 256 + 1 * (y 1).val = (y 1).val; rw [e1]; omega

/-- The shift block at every point is the whole row. -/
theorem iblk1_5_apply (c : Dev nD) (t : Fin cfg1.N) (y : S1x256.Idx) :
    (iblk1 V c 5 t : Vec Ideal S1x256 .f32) y = (V c main_v3 : S1x256.Idx → EReal) y := by
  obtain ⟨-, -, -, -, -, -, -, -, -, -, e0, e1, -⟩ := idx_facts1 t
  unfold iblk1
  rw [View.read_apply]
  show V c main_v3 _ = V c main_v3 _
  congr 1
  funext a
  apply Fin.ext
  match a with
  | ⟨0, _⟩ => show win1_5.index t 0 * 1 + 1 * (y 0).val = (y 0).val; rw [e0]; omega
  | ⟨1, _⟩ => show win1_5.index t 1 * 256 + 1 * (y 1).val = (y 1).val; rw [e1]; omega

/-- The layer's output as one array: the projection, residual and normalisation of the arrays the call is entered with. -/
abbrev normalised (c : Dev nD) : S50000x256.Idx → EReal :=
  projectNorm width epsilon (V c main_v17 : S50000x128.Idx → EReal) (V c main_arg3 : S128x256.Idx → EReal)
    (V c main_v1 : S1x256.Idx → EReal) (V c main_arg0 : S50000x256.Idx → EReal)
    (V c main_v2 : S1x256.Idx → EReal) (V c main_v3 : S1x256.Idx → EReal)

/-- What point t writes back is block t of the layer's output. -/
theorem flushed1 (c : Dev nD) (t : Fin cfg1.N) :
    (dat1 V c).flushed 6 t = ((cfg1.win 6).blk t).view.read (Elt Ideal) (normalised V c) := by
  show (cfg1.win 6).cut (grid1.coords t) ((dat1 V c).after 6 t) = _
  rw [after1_6]
  unfold out1_6
  rw [View.canon_unit_zero hz1]
  simp only [View.ld_unit_zero (S := S2000x128) hz1, View.ld_unit_zero (S := S128x256) hz1,
    View.ld_unit_zero (S := S1x256) hz1, View.ld_unit_zero (S := S2000x256) hz1]
  obtain ⟨-, -, -, -, -, -, -, -, -, -, -, -, e0, e1⟩ := idx_facts1 t
  have hN : cfg1.N = 25 := N_1
  refine funext fun (j : S2000x256.Idx) => ?_
  obtain ⟨p, q, rfl⟩ : ∃ (p : Fin 2000) (q : Fin 256), j = ix2 p q := ⟨j 0, j 1, eq_ix2 j⟩
  refine (pay1_apply (iblk1 V c 0 t) (iblk1 V c 1 t) (iblk1 V c 2 t) (iblk1 V c 3 t) (iblk1 V c 4 t) (iblk1 V c 5 t) p q).trans ?_
  rw [View.read_apply]
  have ht : t.val < 25 := hN ▸ t.isLt
  have hi : ((cfg1.win 6).blk t).view.emb (ix2 p q)
      = (ix2 (⟨2000 * t.val + p.val, by omega⟩ : Fin 50000) q : S50000x256.Idx) := by
    funext a; apply Fin.ext
    match a with
    | ⟨0, _⟩ => show win1_6.index t 0 * 2000 + 1 * p.val = 2000 * t.val + p.val; rw [e0]; omega
    | ⟨1, _⟩ => show win1_6.index t 1 * 256 + 1 * q.val = q.val; rw [e1]; omega
  rw [hi]
  unfold normalised
  rw [projectNorm_ix2]
  have h1 : (fun c' : Fin 256 => affine (iblk1 V c 0 t : Vec Ideal S2000x128 .f32) (iblk1 V c 1 t : Vec Ideal S128x256 .f32)
        (iblk1 V c 2 t : Vec Ideal S1x256 .f32) p c' + (iblk1 V c 3 t : Vec Ideal S2000x256 .f32) (ix2 p c'))
      = fun c' : Fin 256 => affine (V c main_v17 : S50000x128.Idx → EReal) (V c main_arg3 : S128x256.Idx → EReal)
          (V c main_v1 : S1x256.Idx → EReal) (⟨2000 * t.val + p.val, by omega⟩ : Fin 50000) c'
          + (V c main_arg0 : S50000x256.Idx → EReal) (ix2 (⟨2000 * t.val + p.val, by omega⟩ : Fin 50000) c') := by
    funext c'
    unfold affine
    refine congrArg₂ (· + ·) (congrArg₂ (· + ·) (Finset.sum_congr rfl fun k _ => congrArg₂ (· * ·) ?_ ?_) ?_) ?_
    · exact iblk1_0_apply V c t (ix2 p k) _ rfl rfl
    · exact iblk1_1_apply V c t (ix2 k c')
    · exact iblk1_2_apply V c t (ix2 (0 : Fin 1) c')
    · exact iblk1_3_apply V c t (ix2 p c') _ rfl rfl
  have h2 : (fun c' : Fin 256 => (iblk1 V c 4 t : Vec Ideal S1x256 .f32) (ix2 (0 : Fin 1) c'))
      = fun c' : Fin 256 => (V c main_v2 : S1x256.Idx → EReal) (ix2 (0 : Fin 1) c') :=
    funext fun c' => iblk1_4_apply V c t (ix2 (0 : Fin 1) c')
  have h3 : (fun c' : Fin 256 => (iblk1 V c 5 t : Vec Ideal S1x256 .f32) (ix2 (0 : Fin 1) c'))
      = fun c' : Fin 256 => (V c main_v3 : S1x256.Idx → EReal) (ix2 (0 : Fin 1) c') :=
    funext fun c' => iblk1_5_apply V c t (ix2 (0 : Fin 1) c')
  exact (congrArg (fun r => layerNorm width epsilon r _ _ q) h1).trans
    ((congrArg (fun g => layerNorm width epsilon _ g _ q) h2).trans
      (congrArg (fun b => layerNorm width epsilon _ _ b q) h3))

/-- An index of the result array is in point t's block iff each coordinate is in the block's range on its axis. -/
theorem mem_blk1 (t : Fin cfg1.N) (i : S50000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v18).slice (win1_6.rect t)).set ↔ _
  rw [View.set_slice_whole, Rect.mem_set_unit]
  exact Iff.rfl

/-- Every row of the result lies in some point's block. -/
theorem cover1 (i : S50000x256.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 256 := (i 1).isLt
  let t : Fin cfg1.N := ⟨(i 0).val / 2000, by rw [hN]; omega⟩
  obtain ⟨-, -, -, -, -, -, -, -, -, -, -, -, e0, e1⟩ := idx_facts1 t
  have ht : t.val = (i 0).val / 2000 := rfl
  refine ⟨t, flush1_6 t, ?_⟩
  rw [mem_blk1]
  intro a
  match a with
  | ⟨0, _⟩ => show win1_6.index t 0 * 2000 ≤ (i 0).val ∧ (i 0).val < win1_6.index t 0 * 2000 + 2000; rw [e0, ht]; omega
  | ⟨1, _⟩ => show win1_6.index t 1 * 256 ≤ (i 1).val ∧ (i 1).val < win1_6.index t 1 * 256 + 256; rw [e1]; omega

/-- The result array of the second call ends holding the layer's output. -/
theorem final1 (c : Dev nD) : (dat1 V c).arrAt 6 cfg1.N = normalised V c :=
  (dat1 V c).arrAt_eq_of_cover 6 (normalised V c) (fun t _ => flushed1 V c t) (cover1)

end Cert.KernelIdeal.Hand

end
-- ==== Proof.Layer.lean ====
/-
  The whole layer as one function of the ten argument arrays.

  Between the two dense stages the program gathers, for every edge, the transformed row of the edge's source node
  (a negative source index first wrapped by the node count), scales it by the edge's weight, and adds it into the row
  of the edge's destination node, starting from zeros. That stretch is kept here as ONE function of the transformed
  features and the three edge arrays; it is never opened, because the program and its reference apply the very same
  operations to a value that is proved equal on the two sides.

  The layer is then: the affine map of the node features (the bias a one-row matrix), aggregated over the edges,
  projected with the residual added, and normalised row by row.
-/
import proofs.«108852_j56599079026738_1_alg».proof.KernelIdeal
import proofs.«108852_j56599079026738_1_alg».proof.Proof.Gen.KernelIdeal
import proofs.«108852_j56599079026738_1_alg».proof.Proof.Spec
import proofs.«108852_j56599079026738_1_alg».proof.Proof.Body1

noncomputable section

namespace Cert.KernelIdeal.Hand

open Idealize.ShloMosaic Idealize.ShloMosaic.ValueIdx Cert.KernelIdeal Cert.KernelIdeal.Gen Cert.Gnn

/-- The edge stretch: gather the source rows, scale by the edge weights, add into the destination rows. -/
def aggregate (T : (⟨S50000x128, .f32⟩ : BufTy).Contents (Elt Ideal)) (ev : (⟨S800000, .f32⟩ : BufTy).Contents (Elt Ideal))
    (er ec : (⟨S800000, .i32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 er)
    (mulf (broadcastInDim S800000x128 ![0, 1] bcast_S800000x1_S800000x128_0_1 (broadcastInDim S800000x1 ![0] bcast_S800000_S800000x1_0 ev))
      (Host.gather gather_S50000x128_S800000x1_S800000x128_1_0_n_n_0_1_1128 T
        (broadcastInDim S800000x1 ![0] bcast_S800000_S800000x1_0
          (select (cmpi .slt ec (broadcastInDim S800000 ![] bcast_S_S800000 (constantI S_ 32 0#32)))
            (addi ec (broadcastInDim S800000 ![] bcast_S_S800000 (constantI S_ 32 50000#32))) ec))))

/-- A vector laid out as a one-row matrix. -/
abbrev row128 (b : (⟨S128, .f32⟩ : BufTy).Contents (Elt Ideal)) : S1x128.Idx → EReal := shapeCast S1x128 b shapeCasts_S128_S1x128
abbrev row256 (b : (⟨S256, .f32⟩ : BufTy).Contents (Elt Ideal)) : S1x256.Idx → EReal := shapeCast S1x256 b shapeCasts_S256_S1x256

/-- The layer's output as a function of the argument arrays. -/
def layerOut (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) : S50000x256.Idx → EReal :=
  projectNorm width epsilon (aggregate (affineArr x0 x1 (row128 x2)) x7 x8 x9) x3 (row256 x4) x0 (row256 x5) (row256 x6)

end Cert.KernelIdeal.Hand

end
-- ==== Proof.KValue.lean ====
/-
  What the program's result buffer holds at the end, as the layer's function of the argument arrays.

  The buffer contents at the segment boundaries are a fold through @main. Read backwards from the result: the second
  call's result array is the normalised projection of the arrays that call is entered with; of those, the aggregated
  features are the edge stretch applied to the first call's result array and the three edge arrays, the one-row
  operands are the reshaped argument vectors, and the rest are arguments nothing has written; the first call's result
  array is the affine map of the node features, the weight matrix and the reshaped bias.
-/
import proofs.«108852_j56599079026738_1_alg».proof.Proof.Gen.KernelIdeal.Frame
import proofs.«108852_j56599079026738_1_alg».proof.Proof.Region0
import proofs.«108852_j56599079026738_1_alg».proof.Proof.Region1
import proofs.«108852_j56599079026738_1_alg».proof.Proof.Layer
import Idealize.ShloMosaic.Lib.StableHlo.Run

noncomputable section

namespace Cert.KernelIdeal.Hand

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Gnn

variable (m : (ℓ : Loc nD τ sig) → Buf (Elt Ideal) ℓ) (ρ : Dev nD → PrngReg)

/-! ## Before the first call: the arguments as launched, the bias vectors reshaped to one-row matrices -/

theorem W1_main_arg0 (c : Dev nD) : W1 m ρ c (Proc.devRef .tc main_arg0) = m ((c : Thread nD τ).loc main_arg0) := by
  dsimp only [W1, hostOps0]
  after_results

theorem W1_main_arg1 (c : Dev nD) : W1 m ρ c (Proc.devRef .tc main_arg1) = m ((c : Thread nD τ).loc main_arg1) := by
  dsimp only [W1, hostOps0]
  after_results

theorem W1_main_arg3 (c : Dev nD) : W1 m ρ c (Proc.devRef .tc main_arg3) = m ((c : Thread nD τ).loc main_arg3) := by
  dsimp only [W1, hostOps0]
  after_results

theorem W1_main_arg7 (c : Dev nD) : W1 m ρ c (Proc.devRef .tc main_arg7) = m ((c : Thread nD τ).loc main_arg7) := by
  dsimp only [W1, hostOps0]
  after_results

theorem W1_main_arg8 (c : Dev nD) : W1 m ρ c (Proc.devRef .tc main_arg8) = m ((c : Thread nD τ).loc main_arg8) := by
  dsimp only [W1, hostOps0]
  after_results

theorem W1_main_arg9 (c : Dev nD) : W1 m ρ c (Proc.devRef .tc main_arg9) = m ((c : Thread nD τ).loc main_arg9) := by
  dsimp only [W1, hostOps0]
  after_results

theorem W1_main_v0 (c : Dev nD) : W1 m ρ c (Proc.devRef .tc main_v0) = row128 (m ((c : Thread nD τ).loc main_arg2)) := by
  dsimp only [W1, hostOps0]
  after_results
  rfl

theorem W1_main_v1 (c : Dev nD) : W1 m ρ c (Proc.devRef .tc main_v1) = row256 (m ((c : Thread nD τ).loc main_arg4)) := by
  dsimp only [W1, hostOps0]
  after_results
  rfl

theorem W1_main_v2 (c : Dev nD) : W1 m ρ c (Proc.devRef .tc main_v2) = row256 (m ((c : Thread nD τ).loc main_arg5)) := by
  dsimp only [W1, hostOps0]
  after_results
  rfl

theorem W1_main_v3 (c : Dev nD) : W1 m ρ c (Proc.devRef .tc main_v3) = row256 (m ((c : Thread nD τ).loc main_arg6)) := by
  dsimp only [W1, hostOps0]
  after_results
  rfl

/-! ## After the first call: its result array at the transformed features, every other buffer as before -/

theorem W2_main_arg3 (c : Dev nD) : W2 m ρ c (Proc.devRef .tc main_arg3) = W1 m ρ c (Proc.devRef .tc main_arg3) :=
  W2_of_ne m ρ c main_arg3 (by decide)

theorem W2_main_arg7 (c : Dev nD) : W2 m ρ c (Proc.devRef .tc main_arg7) = W1 m ρ c (Proc.devRef .tc main_arg7) :=
  W2_of_ne m ρ c main_arg7 (by decide)

theorem W2_main_arg8 (c : Dev nD) : W2 m ρ c (Proc.devRef .tc main_arg8) = W1 m ρ c (Proc.devRef .tc main_arg8) :=
  W2_of_ne m ρ c main_arg8 (by decide)

theorem W2_main_arg9 (c : Dev nD) : W2 m ρ c (Proc.devRef .tc main_arg9) = W1 m ρ c (Proc.devRef .tc main_arg9) :=
  W2_of_ne m ρ c main_arg9 (by decide)

theorem W2_main_v1 (c : Dev nD) : W2 m ρ c (Proc.devRef .tc main_v1) = W1 m ρ c (Proc.devRef .tc main_v1) :=
  W2_of_ne m ρ c main_v1 (by decide)

theorem W2_main_v2 (c : Dev nD) : W2 m ρ c (Proc.devRef .tc main_v2) = W1 m ρ c (Proc.devRef .tc main_v2) :=
  W2_of_ne m ρ c main_v2 (by decide)

theorem W2_main_v3 (c : Dev nD) : W2 m ρ c (Proc.devRef .tc main_v3) = W1 m ρ c (Proc.devRef .tc main_v3) :=
  W2_of_ne m ρ c main_v3 (by decide)

theorem W2_main_arg0 (c : Dev nD) : W2 m ρ c (Proc.devRef .tc main_arg0) = W1 m ρ c (Proc.devRef .tc main_arg0) :=
  (W2_arr m ρ c 0).trans (((dat0 (V1 m ρ) c).arrAt_in 0 rfl _).trans (A_eq0 (V1 m ρ) c 0))

theorem W2_main_v4 (c : Dev nD) :
    W2 m ρ c (Proc.devRef .tc main_v4) = affineArr (m ((c : Thread nD τ).loc main_arg0)) (m ((c : Thread nD τ).loc main_arg1)) (row128 (m ((c : Thread nD τ).loc main_arg2))) := by
  refine (W2_arr m ρ c 3).trans ((final0 (V1 m ρ) c).trans ?_)
  show affineArr (W1 m ρ c (Proc.devRef .tc main_arg0)) (W1 m ρ c (Proc.devRef .tc main_arg1)) (W1 m ρ c (Proc.devRef .tc main_v0)) = _
  rw [W1_main_arg0, W1_main_arg1, W1_main_v0]

/-! ## Before the second call: the aggregated features computed, every other buffer as before -/

theorem W3_main_v17 (c : Dev nD) :
    W3 m ρ c (Proc.devRef .tc main_v17) = aggregate (W2 m ρ c (Proc.devRef .tc main_v4)) (W2 m ρ c (Proc.devRef .tc main_arg7))
      (W2 m ρ c (Proc.devRef .tc main_arg8)) (W2 m ρ c (Proc.devRef .tc main_arg9)) := by
  dsimp only [W3, hostOps1]
  after_results
  rfl

theorem W3_main_arg3 (c : Dev nD) : W3 m ρ c (Proc.devRef .tc main_arg3) = W2 m ρ c (Proc.devRef .tc main_arg3) := by
  dsimp only [W3, hostOps1]
  after_results

theorem W3_main_v1 (c : Dev nD) : W3 m ρ c (Proc.devRef .tc main_v1) = W2 m ρ c (Proc.devRef .tc main_v1) := by
  dsimp only [W3, hostOps1]
  after_results

theorem W3_main_arg0 (c : Dev nD) : W3 m ρ c (Proc.devRef .tc main_arg0) = W2 m ρ c (Proc.devRef .tc main_arg0) := by
  dsimp only [W3, hostOps1]
  after_results

theorem W3_main_v2 (c : Dev nD) : W3 m ρ c (Proc.devRef .tc main_v2) = W2 m ρ c (Proc.devRef .tc main_v2) := by
  dsimp only [W3, hostOps1]
  after_results

theorem W3_main_v3 (c : Dev nD) : W3 m ρ c (Proc.devRef .tc main_v3) = W2 m ρ c (Proc.devRef .tc main_v3) := by
  dsimp only [W3, hostOps1]
  after_results

/-! ## The result -/

/-- The program's result buffer ends holding the layer's output of the argument arrays. -/
theorem result_eq (c : Dev nD) :
    W4 m ρ c (Proc.devRef .tc main_v18)
      = layerOut (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) := by
  refine (W4_arr m ρ c 6).trans ((final1 (V3 m ρ) c).trans ?_)
  show projectNorm width epsilon (W3 m ρ c (Proc.devRef .tc main_v17)) (W3 m ρ c (Proc.devRef .tc main_arg3)) (W3 m ρ c (Proc.devRef .tc main_v1))
    (W3 m ρ c (Proc.devRef .tc main_arg0)) (W3 m ρ c (Proc.devRef .tc main_v2)) (W3 m ρ c (Proc.devRef .tc main_v3)) = _
  rw [W3_main_v17, W3_main_arg3, W3_main_v1, W3_main_arg0, W3_main_v2, W3_main_v3,
    W2_main_v4, W2_main_arg7, W2_main_arg8, W2_main_arg9, W2_main_arg3, W2_main_v1, W2_main_arg0, W2_main_v2, W2_main_v3,
    W1_main_arg7, W1_main_arg8, W1_main_arg9, W1_main_arg3, W1_main_v1, W1_main_arg0, W1_main_v2, W1_main_v3]
  rfl

end Cert.KernelIdeal.Hand

end
-- ==== Proof.RefValue.lean ====
/-
  The reference computes the layer's function.

  Read one operation at a time at an index (p, c): the first product plus the broadcast bias is the affine map's entry, so
  the transformed features are the same array as on the kernel's side, and the edge stretch — the same operations —
  gives the same aggregated features; the second product plus bias plus residual is the row `res`; the two sums over
  the last axis divided by 256 are its mean and variance; and the result is
  `(γ · (res − μ)) · (σ² + ε)^(-1/2) + β`, which is the layer normalisation with the scale applied first: equal to the
  kernel's grouping by associativity of the product.
-/
import proofs.«108852_j56599079026738_1_alg».proof.Proof.Gen.ReferenceIdeal.Read
import proofs.«108852_j56599079026738_1_alg».proof.Proof.Layer
import proofs.«108852_j56599079026738_1_alg».proof.Proof.LibRowwise
import Idealize.ShloMosaic.Lib.ValueLayout

noncomputable section

namespace Cert.ReferenceIdeal.Hand

open Idealize.ShloMosaic Idealize.ShloMosaic.ValueIdx Cert.ReferenceIdeal Cert.ReferenceIdeal.Gen Cert.ReferenceIdeal.Read Cert.Gnn
open Cert.KernelIdeal.Hand (aggregate layerOut width epsilon row128 row256)
open scoped BigOperators

/-! ## The reference's index maps at an index written by coordinates -/

section Indices
variable (p : Fin 50000) (c : Fin 256) (q : Fin 128) (u : Fin 1)

theorem lidx_v0 : ∀ k : Fin 256, lidx_main_v0 (ix2 p q) k = ix2 p k := fun k =>
  funext fun a => by match a with | ⟨0, _⟩ => rfl | ⟨1, _⟩ => rfl
theorem ridx_v0 : ∀ k : Fin 256, ridx_main_v0 (ix2 p q) k = ix2 k q := fun k =>
  funext fun a => by match a with | ⟨0, _⟩ => rfl | ⟨1, _⟩ => rfl
theorem idx_v2 : idx_main_v2 (ix2 p q) = ix2 (0 : Fin 1) q :=
  funext fun a => by match a with | ⟨0, _⟩ => rfl | ⟨1, _⟩ => rfl
theorem idx_v1 : idx_main_v1 (ix2 u q) = ix1 q :=
  funext fun a => by match a with | ⟨0, _⟩ => rfl
theorem lidx_v17 : ∀ k : Fin 128, lidx_main_v17 (ix2 p c) k = ix2 p k := fun k =>
  funext fun a => by match a with | ⟨0, _⟩ => rfl | ⟨1, _⟩ => rfl
theorem ridx_v17 : ∀ k : Fin 128, ridx_main_v17 (ix2 p c) k = ix2 k c := fun k =>
  funext fun a => by match a with | ⟨0, _⟩ => rfl | ⟨1, _⟩ => rfl
theorem idx_v19 : idx_main_v19 (ix2 p c) = ix2 (0 : Fin 1) c :=
  funext fun a => by match a with | ⟨0, _⟩ => rfl | ⟨1, _⟩ => rfl
theorem idx_v18 : idx_main_v18 (ix2 u c) = ix1 c :=
  funext fun a => by match a with | ⟨0, _⟩ => rfl
theorem idx_v26 : idx_main_v26 (ix2 p c) = ix2 p (0 : Fin 1) :=
  funext fun a => by match a with | ⟨0, _⟩ => rfl | ⟨1, _⟩ => rfl
theorem idx_v23 : idx_main_v23 (ix2 p u) = ix1 p :=
  funext fun a => by match a with | ⟨0, _⟩ => rfl
theorem idx_v22 : ∀ k : Fin 256, idx_main_v22 (ix1 p) k = ix2 p k := fun k =>
  funext fun a => by match a with | ⟨0, _⟩ => rfl | ⟨1, _⟩ => rfl
theorem idx_v33 : idx_main_v33 (ix2 p c) = ix2 p (0 : Fin 1) :=
  funext fun a => by match a with | ⟨0, _⟩ => rfl | ⟨1, _⟩ => rfl
theorem idx_v30 : idx_main_v30 (ix2 p u) = ix1 p :=
  funext fun a => by match a with | ⟨0, _⟩ => rfl
theorem idx_v29 : ∀ k : Fin 256, idx_main_v29 (ix1 p) k = ix2 p k := fun k =>
  funext fun a => by match a with | ⟨0, _⟩ => rfl | ⟨1, _⟩ => rfl
theorem idx_v41 : idx_main_v41 (ix2 p c) = ix2 p (0 : Fin 1) :=
  funext fun a => by match a with | ⟨0, _⟩ => rfl | ⟨1, _⟩ => rfl
theorem idx_v36 : idx_main_v36 (ix2 p c) = ix2 (0 : Fin 1) c :=
  funext fun a => by match a with | ⟨0, _⟩ => rfl | ⟨1, _⟩ => rfl
theorem idx_v35 : idx_main_v35 (ix2 u c) = ix1 c :=
  funext fun a => by match a with | ⟨0, _⟩ => rfl
theorem idx_v44 : idx_main_v44 (ix2 p c) = ix2 (0 : Fin 1) c :=
  funext fun a => by match a with | ⟨0, _⟩ => rfl | ⟨1, _⟩ => rfl
theorem idx_v43 : idx_main_v43 (ix2 u c) = ix1 c :=
  funext fun a => by match a with | ⟨0, _⟩ => rfl

end Indices

/-! ## The transformed and the aggregated features -/

/-- The reference's transformed features are the affine map of the node features. -/
theorem transformed_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) :
    val_main_v3 (F := Ideal) x0 x1 x2 = affineArr x0 x1 (row128 x2) := by
  funext i
  obtain ⟨p, q, rfl⟩ : ∃ (p : Fin 50000) (q : Fin 128), i = ix2 p q := ⟨i 0, i 1, eq_ix2 i⟩
  rw [affineArr_ix2]
  unfold affine
  simp only [val_main_v3_apply, val_main_v0_apply, val_main_v2_apply, val_main_v1_apply, lidx_v0, ridx_v0, idx_v2, idx_v1,
    Ideal.addf_def]
  exact congrArg (_ + ·) (shapeCast_a_1a_apply x2 _ 0 q).symm

/-- The reference's aggregated features are the edge stretch of the same transformed features. -/
theorem aggregated_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) :
    val_main_v16 (F := Ideal) x0 x1 x2 x7 x8 x9 = aggregate (affineArr x0 x1 (row128 x2)) x7 x8 x9 := by
  rw [← transformed_ref x0 x1 x2 x3 x4 x5 x6 x7 x8 x9]
  unfold val_main_v16 val_main_v15 val_main_v14 val_main_v13 val_main_v12 val_main_v11 val_main_v10 val_main_v9 val_main_v8
    val_main_v7 val_main_v6 val_main_v5 val_main_v4 val_main_cst val_main_c val_main_c_0 aggregate
  generalize val_main_v3 (F := Ideal) x0 x1 x2 = T
  rw [show scatter_S50000x128_S800000x1_S800000x128_1_0_0_1
        = Cert.KernelIdeal.scatter_S50000x128_S800000x1_S800000x128_1_0_0_1 from rfl,
    show gather_S50000x128_S800000x1_S800000x128_1_0_n_n_0_1_1128
        = Cert.KernelIdeal.gather_S50000x128_S800000x1_S800000x128_1_0_n_n_0_1_1128 from rfl]

theorem res_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) (p : Fin 50000) (c : Fin 256) :
    val_main_v21 (F := Ideal) x0 x1 x2 x3 x4 x7 x8 x9 (ix2 p c)
      = affine (aggregate (affineArr x0 x1 (row128 x2)) x7 x8 x9) x3 (row256 x4) p c + x0 (ix2 p c) := by
  have hA := aggregated_ref x0 x1 x2 x3 x4 x5 x6 x7 x8 x9
  generalize aggregate (affineArr x0 x1 (row128 x2)) x7 x8 x9 = A at hA ⊢
  unfold affine
  rw [val_main_v21_apply, val_main_v20_apply, val_main_v17_apply, val_main_v19_apply, idx_v19, val_main_v18_apply, idx_v18, hA,
    show row256 x4 (ix2 (0 : Fin 1) c) = x4 (ix1 c) from shapeCast_a_1a_apply x4 _ 0 c]
  exact congrArg₂ (· + ·) (congrArg₂ (· + ·) (Finset.sum_congr rfl fun k _ => by rw [lidx_v17, ridx_v17]) rfl) rfl

/-! ## The normalisation

The rows `res` stay one named array through this part. -/

/-- The reference's mean column at row p is the mean of row p of `res`. -/
theorem mean_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) (res : (⟨S50000x256, .f32⟩ : BufTy).Contents (Elt Ideal))
    (hres : val_main_v21 (F := Ideal) x0 x1 x2 x3 x4 x7 x8 x9 = res) (p : Fin 50000) (u : Fin 1) :
    val_main_v25 (F := Ideal) x0 x1 x2 x3 x4 x7 x8 x9 (ix2 p u) = rowMean width (fun c' => res (ix2 p c')) := by
  unfold rowMean
  rw [val_main_v25_apply, val_main_v23_apply, idx_v23, val_main_v22_apply, val_main_v24_apply, val_main_cst_2_apply,
    val_main_cst_1_apply, hres]
  show Ideal.div (Ideal.ofBits .f32 0x00000000#32 + ∑ k : Fin 256, res (idx_main_v22 (ix1 p) k)) width = _
  rw [Ideal.ofBits_zero_f32, zero_add]
  exact congrArg (fun s => Ideal.div s width) (Finset.sum_congr rfl fun k _ => by rw [idx_v22])

/-- The reference's centred rows at (p, c), through either of its two broadcasts of the mean. -/
theorem centred_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) (res : (⟨S50000x256, .f32⟩ : BufTy).Contents (Elt Ideal))
    (hres : val_main_v21 (F := Ideal) x0 x1 x2 x3 x4 x7 x8 x9 = res) (p : Fin 50000) (c : Fin 256) :
    val_main_v27 (F := Ideal) x0 x1 x2 x3 x4 x7 x8 x9 (ix2 p c) = res (ix2 p c) - rowMean width (fun c' => res (ix2 p c'))
    ∧ val_main_v34 (F := Ideal) x0 x1 x2 x3 x4 x7 x8 x9 (ix2 p c) = res (ix2 p c) - rowMean width (fun c' => res (ix2 p c')) := by
  constructor
  · rw [val_main_v27_apply, val_main_v26_apply, idx_v26, mean_ref x0 x1 x2 x3 x4 x5 x6 x7 x8 x9 res hres, hres]
    rfl
  · rw [val_main_v34_apply, val_main_v33_apply, idx_v33, mean_ref x0 x1 x2 x3 x4 x5 x6 x7 x8 x9 res hres, hres]
    rfl

/-- The reference's variance column at row p is the variance of row p of `res`. -/
theorem var_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) (res : (⟨S50000x256, .f32⟩ : BufTy).Contents (Elt Ideal))
    (hres : val_main_v21 (F := Ideal) x0 x1 x2 x3 x4 x7 x8 x9 = res) (p : Fin 50000) (u : Fin 1) :
    val_main_v32 (F := Ideal) x0 x1 x2 x3 x4 x7 x8 x9 (ix2 p u) = rowVar width (fun c' => res (ix2 p c')) := by
  unfold rowVar
  rw [val_main_v32_apply, val_main_v30_apply, idx_v30, val_main_v29_apply, val_main_v31_apply, val_main_cst_4_apply,
    val_main_cst_3_apply]
  show Ideal.div (Ideal.ofBits .f32 0x00000000#32 + ∑ k : Fin 256, val_main_v28 (F := Ideal) x0 x1 x2 x3 x4 x7 x8 x9 (idx_main_v29 (ix1 p) k)) width = _
  rw [Ideal.ofBits_zero_f32, zero_add]
  refine congrArg (fun s => Ideal.div s width) (Finset.sum_congr rfl fun k _ => ?_)
  rw [idx_v29, val_main_v28_apply, (centred_ref x0 x1 x2 x3 x4 x5 x6 x7 x8 x9 res hres p k).1]
  rfl

/-- The reference's result at (p, c): the scale applied first, then the normalising factor, then the shift. -/
theorem norm_ref (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) (res : (⟨S50000x256, .f32⟩ : BufTy).Contents (Elt Ideal))
    (hres : val_main_v21 (F := Ideal) x0 x1 x2 x3 x4 x7 x8 x9 = res) (p : Fin 50000) (c : Fin 256) :
    val_main_v45 (F := Ideal) x0 x1 x2 x3 x4 x5 x6 x7 x8 x9 (ix2 p c)
      = x5 (ix1 c) * (res (ix2 p c) - rowMean width (fun c' => res (ix2 p c')))
          * Ideal.rsqrt (rowVar width (fun c' => res (ix2 p c')) + epsilon)
        + x6 (ix1 c) := by
  rw [val_main_v45_apply, val_main_v42_apply, val_main_v37_apply, val_main_v36_apply, idx_v36, val_main_v35_apply, idx_v35,
    (centred_ref x0 x1 x2 x3 x4 x5 x6 x7 x8 x9 res hres p c).2, val_main_v41_apply, idx_v41, val_main_v40_apply, val_main_v39_apply,
    var_ref x0 x1 x2 x3 x4 x5 x6 x7 x8 x9 res hres, val_main_v38_apply, val_main_cst_5_apply, val_main_v44_apply, idx_v44, val_main_v43_apply, idx_v43]
  rfl

/-! ## The reference's result is the layer's function -/

theorem ref_eq (x0 : (⟨S50000x256, .f32⟩ : BufTy).Contents (Elt Ideal)) (x1 : (⟨S256x128, .f32⟩ : BufTy).Contents (Elt Ideal))
    (x2 : (⟨S128, .f32⟩ : BufTy).Contents (Elt Ideal)) (x3 : (⟨S128x256, .f32⟩ : BufTy).Contents (Elt Ideal))
    (x4 x5 x6 : (⟨S256, .f32⟩ : BufTy).Contents (Elt Ideal)) (x7 : (⟨S800000, .f32⟩ : BufTy).Contents (Elt Ideal))
    (x8 x9 : (⟨S800000, .i32⟩ : BufTy).Contents (Elt Ideal)) :
    val_main_v45 (F := Ideal) x0 x1 x2 x3 x4 x5 x6 x7 x8 x9 = layerOut x0 x1 x2 x3 x4 x5 x6 x7 x8 x9 := by
  funext i
  obtain ⟨p, c, rfl⟩ : ∃ (p : Fin 50000) (c : Fin 256), i = ix2 p c := ⟨i 0, i 1, eq_ix2 i⟩
  obtain ⟨res, hres⟩ : ∃ res, val_main_v21 (F := Ideal) x0 x1 x2 x3 x4 x7 x8 x9 = res := ⟨_, rfl⟩
  have hr : ∀ c' : Fin 256, res (ix2 p c')
      = affine (aggregate (affineArr x0 x1 (row128 x2)) x7 x8 x9) x3 (row256 x4) p c' + x0 (ix2 p c') := fun c' => by
    rw [← hres]; exact res_ref x0 x1 x2 x3 x4 x5 x6 x7 x8 x9 p c'
  rw [norm_ref x0 x1 x2 x3 x4 x5 x6 x7 x8 x9 res hres p c]
  unfold layerOut
  rw [projectNorm_ix2, ← layerNorm_scale_first]
  generalize aggregate (affineArr x0 x1 (row128 x2)) x7 x8 x9 = A at hr ⊢
  have hf : (fun c' : Fin 256 => res (ix2 p c')) = fun c' : Fin 256 => affine A x3 (row256 x4) p c' + x0 (ix2 p c') :=
    funext hr
  rw [hf, show row256 x5 (ix2 (0 : Fin 1) c) = x5 (ix1 c) from shapeCast_a_1a_apply x5 _ 0 c,
    show row256 x6 (ix2 (0 : Fin 1) c) = x6 (ix1 c) from shapeCast_a_1a_apply x6 _ 0 c, hr c]

end Cert.ReferenceIdeal.Hand

end
-- ==== Proof.lean ====
/-
  A graph layer — an affine map of the node features, a weighted aggregation over the edges, a projection with a
  residual and a layer normalisation — computed by two row-blocked kernels around the host's gather and scatter-add,
  against the same layer written as plain array operations.

  At the exact instance both programs compute one function of the ten argument arrays (`layerOut`):
    * the first kernel's result array is the affine map of the node features, block by block (25 blocks of 2000 rows,
      each a function of its own rows only), and the reference's first product plus bias is the same array;
    * the stretch between the two kernels — gather the source rows, scale by the edge weights, add into the destination
      rows — is the same sequence of operations on both sides, applied to that same array, and is carried as one
      function that is never opened;
    * the second kernel's result array is, row by row, the layer normalisation of the projected rows plus the residual,
      with the scale multiplied onto the already normalised entry; the reference multiplies the scale first. The two
      groupings agree because the product of extended reals is associative. No finiteness of the inputs is used.
  The changes of float format in the kernels are the identity at this instance, the products into a zero accumulator
  are the sums over the contraction index, and the row sums divided by 256 are the same on both sides.

  The three frames are the generated ones (the reference's is its run with the result dropped); the idealisation
  rewrote nothing, so its claim is `True`.
-/
import proofs.«108852_j56599079026738_1_alg».proof.Defs
import proofs.«108852_j56599079026738_1_alg».proof.Proof.Gen.Kernel
import proofs.«108852_j56599079026738_1_alg».proof.Proof.Gen.Kernel.Frame
import proofs.«108852_j56599079026738_1_alg».proof.Proof.Gen.KernelIdeal
import proofs.«108852_j56599079026738_1_alg».proof.Proof.Gen.KernelIdeal.Frame
import proofs.«108852_j56599079026738_1_alg».proof.Proof.Gen.ReferenceIdeal
import proofs.«108852_j56599079026738_1_alg».proof.Proof.Gen.Pre_finite_inputs
import proofs.«108852_j56599079026738_1_alg».proof.Proof.Gen.ReferenceIdeal.Run
import proofs.«108852_j56599079026738_1_alg».proof.Proof.Gen.ReferenceIdeal.Read
import proofs.«108852_j56599079026738_1_alg».proof.Proof.KRun
import proofs.«108852_j56599079026738_1_alg».proof.Proof.KValue
import proofs.«108852_j56599079026738_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer's output of the argument arrays. -/
theorem algebraic : Cert.algebraic_KernelIdeal_ReferenceIdeal := by
  intro m ρ m' ρ' _ hagree
  refine ⟨fun c => Cert.KernelIdeal.Hand.layerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v45_eq, Cert.ReferenceIdeal.Hand.ref_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
